-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S640000 : Shape := ⟨1, ![640000]⟩
abbrev S640000x64 : Shape := ⟨2, ![640000, 64]⟩
abbrev S128x128 : Shape := ⟨2, ![128, 128]⟩
abbrev S64x128 : Shape := ⟨2, ![64, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x64 : S_.BroadcastsInDim S640000x64 (![] : Fin 0 → Fin S640000x64.rank)
  reducesTo_S640000x64_S_d0_1 : S640000x64.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x128 .f32) (main_arg12 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S640000 32) (main_arg2 : IVec S640000 32) (main_arg3 : FVec F S640000x64 .f32) (main_arg4 : FVec F S128x128 .f32) (main_arg5 : FVec F S64x128 .f32) (main_arg6 : FVec F S128 .f32) (main_arg7 : FVec F S128x128 .f32) (main_arg8 : FVec F S128 .f32) (main_arg9 : FVec F S128x128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x64 .f32 := Host.absf main_arg3
  let main_cst_0 : FVec F S_ .f32 := constant S_ .f32 0x7F800000#32
  let main_v5 : FVec F S640000x64 .f32 := broadcastInDim S640000x64 ![] bcast_S_S640000x64 main_cst_0
  let main_v6 : IVec S640000x64 1 := cmpf .olt main_v4 main_v5
  let main_c_1 : IVec S_ 1 := constantI S_ 1 1#1
  let main_v7 : IVec S_ 1 := (fun x v => Host.reduce IntOp.andi x v reducesTo_S640000x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S64x128 .f32 := Host.absf main_arg5
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S640000 : Shape := ⟨1, ![640000]⟩
abbrev S640000x64 : Shape := ⟨2, ![640000, 64]⟩
abbrev S128x128 : Shape := ⟨2, ![128, 128]⟩
abbrev S64x128 : Shape := ⟨2, ![64, 128]⟩
abbrev S128 : Shape := ⟨1, ![128]⟩
abbrev S5000x128 : Shape := ⟨2, ![5000, 128]⟩
abbrev S1x128 : Shape := ⟨2, ![1, 128]⟩
abbrev S640000x128 : Shape := ⟨2, ![640000, 128]⟩
abbrev S8000x64 : Shape := ⟨2, ![8000, 64]⟩
abbrev S8000x128 : Shape := ⟨2, ![8000, 128]⟩
abbrev S_ : Shape := ⟨0, ![]⟩
abbrev S640000x1 : Shape := ⟨2, ![640000, 1]⟩
abbrev S50000 : Shape := ⟨1, ![50000]⟩
abbrev S50000x1 : Shape := ⟨2, ![50000, 1]⟩

abbrev nBuf : Space → Nat
  | .hbm => 46
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000x64, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S50000x128, .f32⟩
  | .hbm, ⟨14, _⟩ => ⟨S1x128, .f32⟩
  | .hbm, ⟨15, _⟩ => ⟨S1x128, .f32⟩
  | .hbm, ⟨16, _⟩ => ⟨S640000x128, .f32⟩
  | .hbm, ⟨17, _⟩ => ⟨S_, .i32⟩
  | .hbm, ⟨18, _⟩ => ⟨S640000, .i32⟩
  | .hbm, ⟨19, _⟩ => ⟨S640000, .i1⟩
  | .hbm, ⟨20, _⟩ => ⟨S_, .i32⟩
  | .hbm, ⟨21, _⟩ => ⟨S640000, .i32⟩
  | .hbm, ⟨22, _⟩ => ⟨S640000, .i32⟩
  | .hbm, ⟨23, _⟩ => ⟨S640000, .i32⟩
  | .hbm, ⟨24, _⟩ => ⟨S640000x1, .i32⟩
  | .hbm, ⟨25, _⟩ => ⟨S640000x128, .f32⟩
  | .hbm, ⟨26, _⟩ => ⟨S640000x128, .f32⟩
  | .hbm, ⟨27, _⟩ => ⟨S_, .f32⟩
  | .hbm, ⟨28, _⟩ => ⟨S50000x128, .f32⟩
  | .hbm, ⟨29, _⟩ => ⟨S640000x1, .i32⟩
  | .hbm, ⟨30, _⟩ => ⟨S50000x128, .f32⟩
  | .hbm, ⟨31, _⟩ => ⟨S_, .f32⟩
  | .hbm, ⟨32, _⟩ => ⟨S640000, .f32⟩
  | .hbm, ⟨33, _⟩ => ⟨S_, .f32⟩
  | .hbm, ⟨34, _⟩ => ⟨S50000, .f32⟩
  | .hbm, ⟨35, _⟩ => ⟨S640000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8000x64, .f32⟩
  | .local _ .vmem, ⟨6, _⟩ => ⟨S8000x64, .f32⟩
  | .local _ .vmem, ⟨7, _⟩ => ⟨S64x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S8000x128, .f32⟩
  | .local _ .vmem, ⟨12, _⟩ => ⟨S8000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_1 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_3 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc2_stg6_0 : Ref sig .tc := ⟨.vmem, 21, rfl⟩
abbrev cc2_stg6_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc2_sem6_0 : DmaSem sig := 21
abbrev cc2_sem6_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128_S1x128 : S128.ShapeCasts S1x128
  inb_S8000x64_S8000x64_0_0 : ∀ a, (![0, 0] : Fin 2 → Nat) a + S8000x64.size a ≤ S8000x64.size a
  h_S8000x64 : 0 < S8000x64.numel
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S8000x128_S8000x128_0_0 : ∀ a, (![0, 0] : Fin 2 → Nat) a + S8000x128.size a ≤ S8000x128.size a
  h_S8000x128 : 0 < S8000x128.numel
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S5000x128_S5000x128 : S5000x128.ShapeCasts S5000x128
  broadcasts_S1x128_S5000x128 : S1x128.Broadcasts S5000x128
  dot_S5000x128_S128x128_S5000x128_1_0_0_1_n_n_wf : DotDims.WF S5000x128 S128x128 S5000x128 [1] [0] [0] [1] [] []
  dot_S8000x64_S64x128_S8000x128_1_0_0_1_n_n_wf : DotDims.WF S8000x64 S64x128 S8000x128 [1] [0] [0] [1] [] []
  dot_S8000x128_S128x128_S8000x128_1_0_0_1_n_n_wf : DotDims.WF S8000x128 S128x128 S8000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S640000x64.size a
  hwx1_0 : ∀ i : grid1.Coords, EltTy.bits .f32 = 32 ∨ (Rect.block (s := S640000x64) S8000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x128.size a ≤ S64x128.size a
  hwx1_1 : ∀ i : grid1.Coords, EltTy.bits .f32 = 32 ∨ (Rect.block (s := S64x128) S64x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8000x128.size a ≤ S640000x128.size a
  hwx1_5 : ∀ i : grid1.Coords, EltTy.bits .f32 = 32 ∨ (Rect.block (s := S640000x128) S8000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg3) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S8000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg9) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v24) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S5000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v26) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S640000 : Shape := ⟨1, ![640000]⟩
abbrev S640000x64 : Shape := ⟨2, ![640000, 64]⟩
abbrev S128x128 : Shape := ⟨2, ![128, 128]⟩
abbrev S64x128 : Shape := ⟨2, ![64, 128]⟩
abbrev S128 : Shape := ⟨1, ![128]⟩
abbrev S640000x128 : Shape := ⟨2, ![640000, 128]⟩
abbrev S1x128 : Shape := ⟨2, ![1, 128]⟩
abbrev S_ : Shape := ⟨0, ![]⟩
abbrev S640000x1 : Shape := ⟨2, ![640000, 1]⟩
abbrev S50000 : Shape := ⟨1, ![50000]⟩
abbrev S50000x1 : Shape := ⟨2, ![50000, 1]⟩

abbrev nBuf : Space → Nat
  | .hbm => 108
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S640000, .i32⟩
  | .hbm, ⟨2, _⟩ => ⟨S640000, .i32⟩
  | .hbm, ⟨3, _⟩ => ⟨S640000x64, .f32⟩
  | .hbm, ⟨4, _⟩ => ⟨S128x128, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S50000x128, .f32⟩
  | .hbm, ⟨14, _⟩ => ⟨S640000x128, .f32⟩
  | .hbm, ⟨15, _⟩ => ⟨S1x128, .f32⟩
  | .hbm, ⟨16, _⟩ => ⟨S640000x128, .f32⟩
  | .hbm, ⟨17, _⟩ => ⟨S640000x128, .f32⟩
  | .hbm, ⟨18, _⟩ => ⟨S_, .f32⟩
  | .hbm, ⟨19, _⟩ => ⟨S640000x128, .f32⟩
  | .hbm, ⟨20, _⟩ => ⟨S640000x128, .f32⟩
  | .hbm, ⟨21, _⟩ => ⟨S640000x128, .f32⟩
  | .hbm, ⟨22, _⟩ => ⟨S640000x128, .f32⟩
  | .hbm, ⟨23, _⟩ => ⟨S640000x128, .i1⟩
  | .hbm, ⟨24, _⟩ => ⟨S640000x128, .f32⟩
  | .hbm, ⟨25, _⟩ => ⟨S640000x128, .f32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S640000x128, .f32⟩
  | .hbm, ⟨41, _⟩ => ⟨S640000x128, .f32⟩
  | .hbm, ⟨42, _⟩ => ⟨S640000x128, .f32⟩
  | .hbm, ⟨43, _⟩ => ⟨S640000x128, .f32⟩
  | .hbm, ⟨44, _⟩ => ⟨S640000x128, .i1⟩
  | .hbm, ⟨45, _⟩ => ⟨S640000x128, .f32⟩
  | .hbm, ⟨46, _⟩ => ⟨S640000x128, .f32⟩
  | .hbm, ⟨47, _⟩ => ⟨S640000x128, .f32⟩
  | .hbm, ⟨48, _⟩ => ⟨S640000x128, .f32⟩
  | .hbm, ⟨49, _⟩ => ⟨S640000x128, .f32⟩
  | .hbm, ⟨50, _⟩ => ⟨S640000x128, .f32⟩
  | .hbm, ⟨51, _⟩ => ⟨S640000x128, .f32⟩
  | .hbm, ⟨52, _⟩ => ⟨S640000x128, .f32⟩
  | .hbm, ⟨53, _⟩ => ⟨S_, .f32⟩
  | .hbm, ⟨54, _⟩ => ⟨S640000x128, .f32⟩
  | .hbm, ⟨55, _⟩ => ⟨S640000x128, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x128, .f32⟩
  | .hbm, ⟨65, _⟩ => ⟨S640000x128, .f32⟩
  | .hbm, ⟨66, _⟩ => ⟨S_, .f32⟩
  | .hbm, ⟨67, _⟩ => ⟨S50000x128, .f32⟩
  | .hbm, ⟨68, _⟩ => ⟨S640000x1, .i32⟩
  | .hbm, ⟨69, _⟩ => ⟨S50000x128, .f32⟩
  | .hbm, ⟨70, _⟩ => ⟨S_, .f32⟩
  | .hbm, ⟨71, _⟩ => ⟨S640000, .f32⟩
  | .hbm, ⟨72, _⟩ => ⟨S_, .f32⟩
  | .hbm, ⟨73, _⟩ => ⟨S50000, .f32⟩
  | .hbm, ⟨74, _⟩ => ⟨S640000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S50000x128, .f32⟩
  | .hbm, ⟨83, _⟩ => ⟨S1x128, .f32⟩
  | .hbm, ⟨84, _⟩ => ⟨S50000x128, .f32⟩
  | .hbm, ⟨85, _⟩ => ⟨S50000x128, .f32⟩
  | .hbm, ⟨86, _⟩ => ⟨S_, .f32⟩
  | .hbm, ⟨87, _⟩ => ⟨S50000x128, .f32⟩
  | .hbm, ⟨88, _⟩ => ⟨S50000x128, .f32⟩
  | .hbm, ⟨89, _⟩ => ⟨S50000x128, .f32⟩
  | .hbm, ⟨90, _⟩ => ⟨S50000x128, .f32⟩
  | .hbm, ⟨91, _⟩ => ⟨S50000x128, .i1⟩
  | .hbm, ⟨92, _⟩ => ⟨S50000x128, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S50000x128, .f32⟩
  | .hbm, ⟨97, _⟩ => ⟨S50000x128, .f32⟩
  | .hbm, ⟨98, _⟩ => ⟨S50000x128, .f32⟩
  | .hbm, ⟨99, _⟩ => ⟨S50000x128, .f32⟩
  | .hbm, ⟨100, _⟩ => ⟨S_, .f32⟩
  | .hbm, ⟨101, _⟩ => ⟨S50000x128, .f32⟩
  | .hbm, ⟨102, _⟩ => ⟨S50000x128, .f32⟩
  | .hbm, ⟨103, _⟩ => ⟨S50000x128, .f32⟩
  | .hbm, ⟨104, _⟩ => ⟨S1x128, .f32⟩
  | .hbm, ⟨105, _⟩ => ⟨S50000x128, .f32⟩
  | .hbm, ⟨106, _⟩ => ⟨S50000x128, .f32⟩
  | .hbm, ⟨107, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v5 : Ref sig .tc := ⟨.hbm, 31, rfl⟩
abbrev main_cst : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_v12 : Ref sig .tc := ⟨.hbm, 52, rfl⟩
abbrev main_cst_0 : Ref sig .tc := ⟨.hbm, 53, rfl⟩
abbrev main_v13 : Ref sig .tc := ⟨.hbm, 54, rfl⟩
abbrev main_v14 : Ref sig .tc := ⟨.hbm, 55, rfl⟩
abbrev main_c : Ref sig .tc := ⟨.hbm, 56, rfl⟩
abbrev main_v15 : Ref sig .tc := ⟨.hbm, 57, rfl⟩
abbrev main_v16 : Ref sig .tc := ⟨.hbm, 58, rfl⟩
abbrev main_c_1 : Ref sig .tc := ⟨.hbm, 59, rfl⟩
abbrev main_v17 : Ref sig .tc := ⟨.hbm, 60, rfl⟩
abbrev main_v18 : Ref sig .tc := ⟨.hbm, 61, rfl⟩
abbrev main_v19 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_cst_2 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_cst_3 : Ref sig .tc := ⟨.hbm, 70, rfl⟩
abbrev main_v26 : Ref sig .tc := ⟨.hbm, 71, rfl⟩
abbrev main_cst_4 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_5 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_call2_cst : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_v39 : Ref sig .tc := ⟨.hbm, 99, rfl⟩
abbrev main_cst_6 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S1x128_S50000x128_0_1 : S1x128.BroadcastsInDim S50000x128 (![0, 1] : Fin 2 → Fin S50000x128.rank)
  dot_S50000x128_S128x128_S50000x128_1_0_0_1_n_n_wf : DotDims.WF S50000x128 S128x128 S50000x128 [1] [0] [0] [1] [] []
  dot_S640000x64_S64x128_S640000x128_1_0_0_1_n_n_wf : DotDims.WF S640000x64 S64x128 S640000x128 [1] [0] [0] [1] [] []
  dot_S640000x128_S128x128_S640000x128_1_0_0_1_n_n_wf : DotDims.WF S640000x128 S128x128 S640000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50000_S640000x1_S640000_n_0_0_1_wf : ScatterDims.WF S50000 S640000x1 S640000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S640000x64_S64x128_S640000x128_1_0_0_1_n_n : DotDims S640000x64 S64x128 S640000x128 where
  lhsContracting := [1]
  rhsContracting := [0]
  lhsNonContracting := [0]
  rhsNonContracting := [1]
  lhsBatch := []
  rhsBatch := []
  wf := dot_S640000x64_S64x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf

class Facts : Prop extends Facts₀ where

variable [Facts]
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«165474_j15161234555433_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSoftplusDense.lean ====
/-
  A dense layer followed by the shifted softplus, over the extended reals, in a kernel body's spelling and in the host's.

  `jax.nn.softplus x` is `logaddexp x 0`: with `d = x - 0` it is `max x 0 + log1p (exp (-|d|))`, except where the test
  `d ≠ d` holds (a NaN in floating point), where it is `x + 0`. On the extended reals the test never holds, but nothing
  below needs that: both spellings carry the same test on the same `d`, so they are one function of `x` whatever it selects.
  A kernel body writes the negation as `0 - |d|` with the f32 word of zero and compares with the ordered "not equal"; the host
  writes `negate (abs d)` and compares with the unordered one. The zero word is `0`, `0 - a = -a` on every extended real, and
  the two comparisons are one on a linear order. A constant word `c` is subtracted afterwards (the shift, `log 2` rounded to
  f32 in the programs this serves; the lemmas hold for any word).

  The layers: rows times weights plus a bias row, then the shifted softplus, entry by entry. A kernel body computes it on a
  block of rows with the left operand rounded to bf16 (the identity here) and the bias kept as a `[1, M]` row repeated down
  the rows; the host computes it on the whole array with the bias `[M]` lifted twice. Entry `(p, q)` of either is
  `ssp c (Σ_k X(p,k)·W(k,q) + b(q))`, a function of row `p` of the left operand only.
-/
import Idealize.ShloMosaic.PureOps.Ideal.Laws
import Idealize.ShloMosaic.Lib.ValueIdx
import Idealize.ShloMosaic.Lib.ValueLayout
import Idealize.ShloMosaic.Lib.Pipeline.Value
import proofs.«165474_j15161234555433_1_alg».proof.Proof.LibAffine

namespace Idealize.ShloMosaic.SoftplusDense

open Idealize.ShloMosaic.ValueIdx

/-- The shifted softplus of one extended real, in the kernel body's spelling: `logaddexp x 0 - c` with the zero word. -/
noncomputable def ssp (c x : Ideal .f32) : Ideal .f32 :=
  FloatOps.subf
    (Scalar.select
      (FloatOps.cmpf .one (FloatOps.subf x (FloatOps.ofBits .f32 0x00000000#32)) (FloatOps.subf x (FloatOps.ofBits .f32 0x00000000#32)))
      (FloatOps.addf x (FloatOps.ofBits .f32 0x00000000#32))
      (FloatOps.addf (FloatOps.maximumf x (FloatOps.ofBits .f32 0x00000000#32))
        (FloatOps.log1p (FloatOps.exp (FloatOps.subf (FloatOps.ofBits .f32 0x00000000#32)
          (FloatOps.absf (FloatOps.subf x (FloatOps.ofBits .f32 0x00000000#32))))))))
    c

/-- The zero word minus `a` is `-a`, on every extended real. -/
theorem zero_word_sub (a : EReal) : Ideal.ofBits .f32 0x00000000#32 - a = -a := by
  rw [Ideal.ofBits_zero_f32, zero_sub]

variable {S : Shape}

/-- The kernel body's spelling on an array: every operation pointwise, the scalars splat. -/
noncomputable def ksoftplus (c : BitVec 32) (v : FVec Ideal S .f32) : FVec Ideal S .f32 :=
  subf
    (select
      (cmpf .one (subf v (broadcast S (Scalar.ofBits .f32 0x00000000#32))) (subf v (broadcast S (Scalar.ofBits .f32 0x00000000#32))))
      (addf v (broadcast S (Scalar.ofBits .f32 0x00000000#32)))
      (addf (maximumf v (broadcast S (Scalar.ofBits .f32 0x00000000#32)))
        (log1p (exp (subf (broadcast S (Scalar.ofBits .f32 0x00000000#32))
          (absf (subf v (broadcast S (Scalar.ofBits .f32 0x00000000#32)))))))))
    (broadcast S (Scalar.ofBits .f32 c))

theorem ksoftplus_apply (c : BitVec 32) (v : FVec Ideal S .f32) (i : S.Idx) :
    ksoftplus c v i = ssp (Ideal.ofBits .f32 c) (v i) := rfl

/-- The host's spelling on an array: the scalars are rank-0 constants broadcast to the shape. -/
noncomputable def hsoftplus (hb : (⟨0, ![]⟩ : Shape).BroadcastsInDim S (![] : Fin 0 → Fin S.rank)) (c : BitVec 32)
    (v : FVec Ideal S .f32) : FVec Ideal S .f32 :=
  subf
    (select
      (cmpf .une (subf v (broadcastInDim S ![] hb (constant ⟨0, ![]⟩ .f32 0x00000000#32)))
        (subf v (broadcastInDim S ![] hb (constant ⟨0, ![]⟩ .f32 0x00000000#32))))
      (addf v (broadcastInDim S ![] hb (constant ⟨0, ![]⟩ .f32 0x00000000#32)))
      (addf (maximumf v (broadcastInDim S ![] hb (constant ⟨0, ![]⟩ .f32 0x00000000#32)))
        (Host.log1p (Host.exp (Host.negf (Host.absf (subf v (broadcastInDim S ![] hb (constant ⟨0, ![]⟩ .f32 0x00000000#32)))))))))
    (broadcastInDim S ![] hb (constant ⟨0, ![]⟩ .f32 c))

theorem hsoftplus_apply (hb : (⟨0, ![]⟩ : Shape).BroadcastsInDim S (![] : Fin 0 → Fin S.rank)) (c : BitVec 32)
    (v : FVec Ideal S .f32) (i : S.Idx) :
    hsoftplus hb c v i = ssp (Ideal.ofBits .f32 c) (v i) := by
  show FloatOps.subf
      (Scalar.select
        (FloatOps.cmpf .one (FloatOps.subf (v i) (FloatOps.ofBits .f32 0x00000000#32)) (FloatOps.subf (v i) (FloatOps.ofBits .f32 0x00000000#32)))
        (FloatOps.addf (v i) (FloatOps.ofBits .f32 0x00000000#32))
        (FloatOps.addf (FloatOps.maximumf (v i) (FloatOps.ofBits .f32 0x00000000#32))
          (FloatOps.log1p (FloatOps.exp (-(FloatOps.absf (FloatOps.subf (v i) (FloatOps.ofBits .f32 0x00000000#32))))))))
      (Ideal.ofBits .f32 c) = _
  rw [← zero_word_sub]
  rfl

variable {A K M : Nat}

/-- A kernel body's layer at row `p`, column `q` of its block. -/
theorem klayer_apply {φw : FTy} (prec : Option ContractPrecision) (c : BitVec 32) (x0 : FVec Ideal ⟨2, ![A, K]⟩ .f32)
    (w : FVec Ideal ⟨2, ![K, M]⟩ φw) (b : FVec Ideal ⟨2, ![1, M]⟩ .f32) (ht : FTy.bf16.bits < FTy.f32.bits)
    (hb : (⟨2, ![1, M]⟩ : Shape).Broadcasts ⟨2, ![A, M]⟩) (p : Fin A) (q : Fin M) :
    ksoftplus c (addf (FloatOps.matmul (DotDims.plain A K M) prec (truncf .bf16 x0 ht) w (constant ⟨2, ![A, M]⟩ .f32 0x00000000#32))
        (broadcastTo ⟨2, ![A, M]⟩ b hb)) (ix2 p q)
      = ssp (Ideal.ofBits .f32 c) ((∑ k : Fin K, x0 (ix2 p k) * w (ix2 k q)) + b (ix2 (0 : Fin 1) q)) :=
  (ksoftplus_apply c _ (ix2 p q)).trans
    (congrArg (ssp (Ideal.ofBits .f32 c)) ((Affine.body_apply prec x0 w b ht hb p q).trans (Affine.affine_ix2 x0 w b p q)))

/-- The host's layer at `(p, q)` of the whole array. -/
theorem hlayer_apply (prec : Option ContractPrecision) (sched : HostSchedule) (c : BitVec 32) (X : FVec Ideal ⟨2, ![A, K]⟩ .f32)
    (W : FVec Ideal ⟨2, ![K, M]⟩ .f32) (b : FVec Ideal ⟨1, ![M]⟩ .f32)
    (h0 : (⟨0, ![]⟩ : Shape).BroadcastsInDim ⟨2, ![A, M]⟩ (![] : Fin 0 → Fin 2))
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    hsoftplus h0 c (addf (FloatOps.dotGeneral (DotDims.plain A K M) prec sched X W)
        (broadcastInDim ⟨2, ![A, M]⟩ ![0, 1] h2 (broadcastInDim ⟨2, ![1, M]⟩ ![1] h1 b))) (ix2 p q)
      = ssp (Ideal.ofBits .f32 c) ((∑ k : Fin K, X (ix2 p k) * W (ix2 k q)) + b (ix1 q)) :=
  (hsoftplus_apply h0 c _ (ix2 p q)).trans
    (congrArg (ssp (Ideal.ofBits .f32 c)) (Affine.host_apply prec sched X W b h1 h2 p q))

/-! ## The layers as array functions, and a block of rows against the whole array

A row-tiled kernel holds a block of the rows of `X`; the weights and the bias it holds whole. Entry `(p, q)` of its block of
the result reads row `p` of the block; entry `(r, q)` of the host's result reads row `r` of `X`. Where the two rows are the
same row, the weights agree entry by entry and the bias row is the bias, the entries are equal: the three lemmas `*_row` say
so for a bare product, for a product plus bias, and for a layer with the shifted softplus. -/

/-- The kernel body's layer as one function of its block, its weights and its bias row. -/
noncomputable def klayer {φw : FTy} (c : BitVec 32) (ht : FTy.bf16.bits < FTy.f32.bits)
    (hb : (⟨2, ![1, M]⟩ : Shape).Broadcasts ⟨2, ![A, M]⟩) (x0 : FVec Ideal ⟨2, ![A, K]⟩ .f32) (w : FVec Ideal ⟨2, ![K, M]⟩ φw)
    (b : FVec Ideal ⟨2, ![1, M]⟩ .f32) : FVec Ideal ⟨2, ![A, M]⟩ .f32 :=
  ksoftplus c (addf (FloatOps.matmul (DotDims.plain A K M) none (truncf .bf16 x0 ht) w (constant ⟨2, ![A, M]⟩ .f32 0x00000000#32))
    (broadcastTo ⟨2, ![A, M]⟩ b hb))

theorem klayer_ix2 {φw : FTy} (c : BitVec 32) (ht : FTy.bf16.bits < FTy.f32.bits)
    (hb : (⟨2, ![1, M]⟩ : Shape).Broadcasts ⟨2, ![A, M]⟩) (x0 : FVec Ideal ⟨2, ![A, K]⟩ .f32) (w : FVec Ideal ⟨2, ![K, M]⟩ φw)
    (b : FVec Ideal ⟨2, ![1, M]⟩ .f32) (p : Fin A) (q : Fin M) :
    klayer c ht hb x0 w b (ix2 p q)
      = ssp (Ideal.ofBits .f32 c) ((∑ k : Fin K, x0 (ix2 p k) * w (ix2 k q)) + b (ix2 (0 : Fin 1) q)) :=
  klayer_apply none c x0 w b ht hb p q

/-- The host's layer as one function of the whole array, the weights and the bias. -/
noncomputable def hlayer (c : BitVec 32) (h0 : (⟨0, ![]⟩ : Shape).BroadcastsInDim ⟨2, ![A, M]⟩ (![] : Fin 0 → Fin 2))
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) :
    FVec Ideal ⟨2, ![A, M]⟩ .f32 :=
  hsoftplus h0 c (addf (Host.dotGeneral (DotDims.plain A K M) none X W)
    (broadcastInDim ⟨2, ![A, M]⟩ ![0, 1] h2 (broadcastInDim ⟨2, ![1, M]⟩ ![1] h1 b)))

theorem hlayer_ix2 (c : BitVec 32) (h0 : (⟨0, ![]⟩ : Shape).BroadcastsInDim ⟨2, ![A, M]⟩ (![] : Fin 0 → Fin 2))
    (h1 : (⟨1, ![M]⟩ : Shape).BroadcastsInDim ⟨2, ![1, M]⟩ ![1])
    (h2 : (⟨2, ![1, M]⟩ : Shape).BroadcastsInDim ⟨2, ![A, M]⟩ ![0, 1])
    (X : FVec Ideal ⟨2, ![A, K]⟩ .f32) (W : FVec Ideal ⟨2, ![K, M]⟩ .f32) (b : FVec Ideal ⟨1, ![M]⟩ .f32) (p : Fin A) (q : Fin M) :
    hlayer c h0 h1 h2 X W b (ix2 p q)
      = ssp (Ideal.ofBits .f32 c) ((∑ k : Fin K, X (ix2 p k) * W (ix2 k q)) + b (ix1 q)) :=
  hlayer_apply none .single c X W b h0 h1 h2 p q

variable {B : Nat}

/-- A bare product: the kernel's block entry is the host's entry at the shared row. -/
theorem dot_row {φw : FTy} (ht : FTy.bf16.bits < FTy.f32.bits) (x0 : FVec Ideal ⟨2, ![B, K]⟩ .f32) (w : FVec Ideal ⟨2, ![K, M]⟩ φw)
    (X : FVec Ideal ⟨2, ![A, K]⟩ .f32) (W : FVec Ideal ⟨2, ![K, M]⟩ .f32) (p : Fin B) (r : Fin A) (q : Fin M)
    (hx : ∀ k : Fin K, x0 (ix2 p k) = X (ix2 r k)) (hw : ∀ k : Fin K, (w (ix2 k q) : EReal) = W (ix2 k q)) :
    FloatOps.matmul (DotDims.plain B K M) none (truncf .bf16 x0 ht) w (constant ⟨2, ![B, M]⟩ .f32 0x00000000#32) (ix2 p q)
      = Host.dotGeneral (DotDims.plain A K M) none X W (ix2 r q) := by
  refine (PlainDot.matmul_apply_ix2 none (truncf .bf16 x0 ht) w p q).trans
    (Eq.trans ?_ (PlainDot.dotGeneral_apply_ix2 none .single X W r q).symm)
  refine Finset.sum_congr rfl fun k _ => ?_
  show x0 (ix2 p k) * (w (ix2 k q) : EReal) = X (ix2 r k) * W (ix2 k q)
  rw [hx k, hw k]

/-- A product plus bias. -/
theorem affine_row {φw : FTy} (ht : FTy.bf16.bits < FTy.f32.bits) (hb : (⟨2, ![1, M]⟩ : Shape).Broadcasts ⟨2, ![B, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (x0 : FVec Ideal ⟨2, ![B, K]⟩ .f32) (w : FVec Ideal ⟨2, ![K, M]⟩ φw) (b : FVec Ideal ⟨2, ![1, M]⟩ .f32)
    (X : FVec Ideal ⟨2, ![A, K]⟩ .f32) (W : FVec Ideal ⟨2, ![K, M]⟩ .f32) (bv : FVec Ideal ⟨1, ![M]⟩ .f32)
    (p : Fin B) (r : Fin A) (q : Fin M)
    (hx : ∀ k : Fin K, x0 (ix2 p k) = X (ix2 r k)) (hw : ∀ k : Fin K, (w (ix2 k q) : EReal) = W (ix2 k q))
    (hbias : b (ix2 (0 : Fin 1) q) = bv (ix1 q)) :
    addf (FloatOps.matmul (DotDims.plain B K M) none (truncf .bf16 x0 ht) w (constant ⟨2, ![B, M]⟩ .f32 0x00000000#32))
        (broadcastTo ⟨2, ![B, M]⟩ b hb) (ix2 p q)
      = addf (Host.dotGeneral (DotDims.plain A K M) none X W)
          (broadcastInDim ⟨2, ![A, M]⟩ ![0, 1] h2 (broadcastInDim ⟨2, ![1, M]⟩ ![1] h1 bv)) (ix2 r q) := by
  refine ((Affine.body_apply none x0 w b ht hb p q).trans (Affine.affine_ix2 x0 w b p q)).trans
    (Eq.trans ?_ (Affine.host_apply none .single X W bv h1 h2 r q).symm)
  refine congrArg₂ (· + ·) (Finset.sum_congr rfl fun k _ => ?_) hbias
  show x0 (ix2 p k) * (w (ix2 k q) : EReal) = X (ix2 r k) * W (ix2 k q)
  rw [hx k, hw k]

/-- A layer with the shifted softplus. -/
theorem layer_row {φw : FTy} (c : BitVec 32) (ht : FTy.bf16.bits < FTy.f32.bits) (hb : (⟨2, ![1, M]⟩ : Shape).Broadcasts ⟨2, ![B, M]⟩)
    (h0 : (⟨0, ![]⟩ : Shape).BroadcastsInDim ⟨2, ![A, M]⟩ (![] : Fin 0 → Fin 2))
    (h1 : (⟨1, ![M]⟩ : Shape).BroadcastsInDim ⟨2, ![1, M]⟩ ![1])
    (h2 : (⟨2, ![1, M]⟩ : Shape).BroadcastsInDim ⟨2, ![A, M]⟩ ![0, 1])
    (x0 : FVec Ideal ⟨2, ![B, K]⟩ .f32) (w : FVec Ideal ⟨2, ![K, M]⟩ φw) (b : FVec Ideal ⟨2, ![1, M]⟩ .f32)
    (X : FVec Ideal ⟨2, ![A, K]⟩ .f32) (W : FVec Ideal ⟨2, ![K, M]⟩ .f32) (bv : FVec Ideal ⟨1, ![M]⟩ .f32)
    (p : Fin B) (r : Fin A) (q : Fin M)
    (hx : ∀ k : Fin K, x0 (ix2 p k) = X (ix2 r k)) (hw : ∀ k : Fin K, (w (ix2 k q) : EReal) = W (ix2 k q))
    (hbias : b (ix2 (0 : Fin 1) q) = bv (ix1 q)) :
    klayer c ht hb x0 w b (ix2 p q) = hlayer c h0 h1 h2 X W bv (ix2 r q) := by
  rw [klayer_ix2, hlayer_ix2]
  refine congrArg (ssp (Ideal.ofBits .f32 c)) (congrArg₂ (· + ·) (Finset.sum_congr rfl fun k _ => ?_) hbias)
  show x0 (ix2 p k) * (w (ix2 k q) : EReal) = X (ix2 r k) * W (ix2 k q)
  rw [hx k, hw k]

end Idealize.ShloMosaic.SoftplusDense
-- ==== Proof.Interaction.lean ====
/-
  The function both programs compute, stage by stage, over the extended reals.

  Node features `X : [50000, 128]`, edge features `E : [640000, 64]`, an edge's two end nodes `i1, i2 : [640000]`, and the weights.
    • `atomwise X W`         every node's features times `W` (no bias);
    • `filter E W1 b1 W2 b2`  two layers on every edge's features, each followed by `softplus - log 2` (the shift is the f32
                              word `0x3F317218` in both programs);
    • `scatterMean x w i1 i2` for every edge the row `i2` of `x` (a negative index counted from the end) times the edge's row of
                              `w`, added into row `i1`, then every row divided by `max(count, 1)` where the count of a row is the
                              number of edges added into it;
    • `outMlp y W2 b2 W3 b3 X` one layer with the shifted softplus, one without, and `X` added.
  Each stage is written here with the host's operations on whole arrays. A gather and the two accumulating scatters take
  their dimension records as parameters: the two programs print their own copies of one record, and both read the
  stage at theirs. Nothing here depends on what a gather or a scatter computes: the two programs apply the same ones to
  arrays that are shown equal.
-/
import proofs.«165474_j15161234555433_1_alg».proof.Proof.LibSoftplusDense

noncomputable section

namespace Cert.Interaction

open Idealize.ShloMosaic Idealize.ShloMosaic.SoftplusDense

abbrev Sn : Shape := ⟨2, ![50000, 128]⟩
abbrev Se : Shape := ⟨2, ![640000, 128]⟩
abbrev Se0 : Shape := ⟨2, ![640000, 64]⟩
abbrev Sw : Shape := ⟨2, ![128, 128]⟩
abbrev Sw0 : Shape := ⟨2, ![64, 128]⟩
abbrev Sb : Shape := ⟨1, ![128]⟩
abbrev Sr : Shape := ⟨2, ![1, 128]⟩
abbrev Si : Shape := ⟨1, ![640000]⟩
abbrev Si1 : Shape := ⟨2, ![640000, 1]⟩
abbrev Sc : Shape := ⟨1, ![50000]⟩
abbrev Sc1 : Shape := ⟨2, ![50000, 1]⟩
abbrev S0 : Shape := ⟨0, ![]⟩

theorem b0_e : S0.BroadcastsInDim Se (![] : Fin 0 → Fin 2) := by decide
theorem b0_n : S0.BroadcastsInDim Sn (![] : Fin 0 → Fin 2) := by decide
theorem b_r : Sb.BroadcastsInDim Sr (![1] : Fin 1 → Fin 2) := by decide
theorem br_e : Sr.BroadcastsInDim Se (![0, 1] : Fin 2 → Fin 2) := by decide
theorem br_n : Sr.BroadcastsInDim Sn (![0, 1] : Fin 2 → Fin 2) := by decide
theorem b0_i : S0.BroadcastsInDim Si (![] : Fin 0 → Fin 1) := by decide
theorem bi_i1 : Si.BroadcastsInDim Si1 (![0] : Fin 1 → Fin 2) := by decide
theorem b0_c : S0.BroadcastsInDim Sc (![] : Fin 0 → Fin 1) := by decide
theorem bc_c1 : Sc.BroadcastsInDim Sc1 (![0] : Fin 1 → Fin 2) := by decide
theorem bc1_n : Sc1.BroadcastsInDim Sn (![0, 1] : Fin 2 → Fin 2) := by decide

/-- Every node's features times the weights. -/
def atomwise (X : FVec Ideal Sn .f32) (W : FVec Ideal Sw .f32) : FVec Ideal Sn .f32 :=
  Host.dotGeneral (DotDims.plain 50000 128 128) none X W

/-- The filter of every edge: two layers, the shifted softplus after each. -/
def filter (E : FVec Ideal Se0 .f32) (W1 : FVec Ideal Sw0 .f32) (B1 : FVec Ideal Sb .f32) (W2 : FVec Ideal Sw .f32)
    (B2 : FVec Ideal Sb .f32) : FVec Ideal Se .f32 :=
  hlayer 0x3F317218#32 b0_e b_r br_e (hlayer 0x3F317218#32 b0_e b_r br_e E W1 B1) W2 B2

/-- Gather the rows `i2`, weigh them by the filters, add them into the rows `i1`, divide by the clamped counts. -/
def scatterMean (gd : GatherDims Sn Si1 Se) (sd2 : ScatterDims Sn Si1 Se) (sd1 : ScatterDims Sc Si1 Si)
    (x : FVec Ideal Sn .f32) (w : FVec Ideal Se .f32) (i1 i2 : IVec Si 32) : FVec Ideal Sn .f32 :=
  Host.divf
    (Host.scatterAdd sd2 (broadcastInDim Sn ![] b0_n (constant S0 .f32 0x00000000#32)) (broadcastInDim Si1 ![0] bi_i1 i1)
      (mulf
        (Host.gather gd x
          (broadcastInDim Si1 ![0] bi_i1
            (select (cmpi .slt i2 (broadcastInDim Si ![] b0_i (constantI S0 32 0#32)))
              (addi i2 (broadcastInDim Si ![] b0_i (constantI S0 32 50000#32))) i2)))
        w))
    (broadcastInDim Sn ![0, 1] bc1_n
      (broadcastInDim Sc1 ![0] bc_c1
        (maximumf
          (Host.scatterAdd sd1 (broadcastInDim Sc ![] b0_c (constant S0 .f32 0x00000000#32)) (broadcastInDim Si1 ![0] bi_i1 i1)
            (broadcastInDim Si ![] b0_i (constant S0 .f32 0x3F800000#32)))
          (broadcastInDim Sc ![] b0_c (constant S0 .f32 0x3F800000#32)))))

/-- The output layers and the residual. -/
def outMlp (Y : FVec Ideal Sn .f32) (W2 : FVec Ideal Sw .f32) (B2 : FVec Ideal Sb .f32) (W3 : FVec Ideal Sw .f32)
    (B3 : FVec Ideal Sb .f32) (X : FVec Ideal Sn .f32) : FVec Ideal Sn .f32 :=
  addf X (addf (Host.dotGeneral (DotDims.plain 50000 128 128) none (hlayer 0x3F317218#32 b0_n b_r br_n Y W2 B2) W3)
    (broadcastInDim Sn ![0, 1] br_n (broadcastInDim Sr ![1] b_r B3)))

/-- The whole computation. -/
def result (gd : GatherDims Sn Si1 Se) (sd2 : ScatterDims Sn Si1 Se) (sd1 : ScatterDims Sc Si1 Si)
    (X : FVec Ideal Sn .f32) (i1 i2 : IVec Si 32) (E : FVec Ideal Se0 .f32) (Wa : FVec Ideal Sw .f32)
    (W1 : FVec Ideal Sw0 .f32) (B1 : FVec Ideal Sb .f32) (W2 : FVec Ideal Sw .f32) (B2 : FVec Ideal Sb .f32)
    (W3 : FVec Ideal Sw .f32) (B3 : FVec Ideal Sb .f32) (W4 : FVec Ideal Sw .f32) (B4 : FVec Ideal Sb .f32) : FVec Ideal Sn .f32 :=
  outMlp (scatterMean gd sd2 sd1 (atomwise X Wa) (filter E W1 B1 W2 B2) i1 i2) W3 B3 W4 B4 X

end Cert.Interaction

end
-- ==== Proof.KernelRegions.lean ====
/-
  Region by region, what the kernel's three pallas_calls leave in their output arrays: every call tiles the rows of its
  row operands (5000 node rows, or 8000 edge rows, per grid point), keeps its weights and bias rows whole, and an entry of the
  block it writes back reads one row of its row operands. So the array a call leaves is the stage of the specification
  (Interaction.lean) applied to the whole arrays the call found, whatever they held.
-/
import proofs.«165474_j15161234555433_1_alg».proof.Proof.Gen.KernelIdeal.Frame
import proofs.«165474_j15161234555433_1_alg».proof.Proof.Interaction
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)
open Idealize.ShloMosaic.ValueIdx Idealize.ShloMosaic.SoftplusDense

namespace Cert.KernelIdeal.Hand

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## The nodes' product (custom_call 0) -/

/-- An entry of the body's product reads one row of its block of node features: where that row is a row of the whole
    array and the block of weights is the weights, the entry is the stage's. -/
theorem nodes_point (x0 : Vec Ideal S5000x128 .f32) (x1 : Vec Ideal S128x128 .f32) (X : FVec Ideal S50000x128 .f32)
    (W : FVec Ideal S128x128 .f32) (j : S5000x128.Idx) (i : S50000x128.Idx)
    (hx : ∀ k : Fin 128, x0 (ix2 (j 0) k) = X (ix2 (i 0) k)) (hw : x1 = W) (hq : (j 1).val = (i 1).val) :
    k0_pay1 x0 x1 j = Cert.Interaction.atomwise X W i := by
  subst hw
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q = q' := Fin.ext hq
  unfold k0_pay1
  exact dot_row bitsLt_bf16_f32 x0 (truncf .bf16 x1 bitsLt_bf16_f32) X x1 p r q hx (fun k => rfl)

/-- The printed index maps over the grid: the row windows move with the point, the weights stay. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the stage of the arrays the call found. -/
theorem nodes_flushed (c : Dev nD) (t : Fin cfg0.N) :
    (dat0 V c).flushed 2 t
      = ((cfg0.win 2).blk t).view.read (Elt Ideal) (Cert.Interaction.atomwise (V c main_arg0) (V c main_arg4)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e00, e01, e10, e11, e20, e21⟩ := idx0 t
  funext j
  refine nodes_point (iblk0 V c 0 t) (iblk0 V c 1 t) (V c main_arg0) (V c main_arg4) j (((cfg0.win 2).blk t).view.emb j) ?_ ?_ ?_
  · intro k
    show V c main_arg0 (((cfg0.win 0).blk t).view.emb (ix2 (j 0) k)) = V c main_arg0 (ix2 ((((cfg0.win 2).blk t).view.emb j) 0) k)
    refine congrArg _ (funext fun a => Fin.ext ?_)
    match a with
    | ⟨0, _⟩ => show win0_0.index t (0 : Fin 2) * 5000 + 1 * (j 0).val = win0_2.index t (0 : Fin 2) * 5000 + 1 * (j 0).val; rw [e00, e20]
    | ⟨1, _⟩ => show win0_0.index t (1 : Fin 2) * 128 + 1 * k.val = k.val; rw [e01]; omega
  · funext y
    show V c main_arg4 (((cfg0.win 1).blk t).view.emb y) = V c main_arg4 y
    refine congrArg _ (funext fun a => Fin.ext ?_)
    match a with
    | ⟨0, _⟩ => show win0_1.index t (0 : Fin 2) * 128 + 1 * (y 0).val = (y 0).val; rw [e10]; omega
    | ⟨1, _⟩ => show win0_1.index t (1 : Fin 2) * 128 + 1 * (y 1).val = (y 1).val; rw [e11]; omega
  · show (j 1).val = win0_2.index t (1 : Fin 2) * 128 + 1 * (j 1).val
    rw [e21]; omega

/-- An index of the nodes' array is in point `t`'s block iff each coordinate is in the block's range on its axis. -/
theorem nodes_mem (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v0).slice (win0_2.rect t)).set ↔ _
  rw [View.set_slice_whole, Rect.mem_set_unit]
  exact Iff.rfl

/-- The array the call leaves: row `r` is written back by point `r / 5000`, so every entry is the stage's. -/
theorem nodes_final (c : Dev nD) :
    (dat0 V c).arrAt 2 cfg0.N = Cert.Interaction.atomwise (V c main_arg0) (V c main_arg4) :=
  (dat0 V c).arrAt_eq_of_cover 2 _ (fun t _ => nodes_flushed V c t) fun i => by
    have hi0 : (i 0).val < 50000 := (i 0).isLt
    have hi1 : (i 1).val < 128 := (i 1).isLt
    have hN : cfg0.N = 10 := N_0
    obtain ⟨-, -, -, -, e20, e21⟩ := idx0 ⟨(i 0).val / 5000, by rw [hN]; omega⟩
    refine ⟨⟨(i 0).val / 5000, by rw [hN]; omega⟩, flush0_2 _, ?_⟩
    rw [nodes_mem]
    intro a
    match a with
    | ⟨0, _⟩ =>
      show win0_2.index ⟨(i 0).val / 5000, _⟩ (0 : Fin 2) * 5000 ≤ (i 0).val
        ∧ (i 0).val < win0_2.index ⟨(i 0).val / 5000, _⟩ (0 : Fin 2) * 5000 + 5000
      rw [e20]; show (i 0).val / 5000 * 5000 ≤ (i 0).val ∧ (i 0).val < (i 0).val / 5000 * 5000 + 5000; omega
    | ⟨1, _⟩ =>
      show win0_2.index ⟨(i 0).val / 5000, _⟩ (1 : Fin 2) * 128 ≤ (i 1).val
        ∧ (i 1).val < win0_2.index ⟨(i 0).val / 5000, _⟩ (1 : Fin 2) * 128 + 128
      rw [e21]; omega

/-! ## The edges' filters (custom_call 1) -/

/-- An entry of the body's two layers reads one row of its block of edge features. -/
theorem edges_point (x0 : Vec Ideal S8000x64 .f32) (x1 : Vec Ideal S64x128 .f32) (x2 : Vec Ideal S1x128 .f32)
    (x3 : Vec Ideal S128x128 .f32) (x4 : Vec Ideal S1x128 .f32)
    (E : FVec Ideal S640000x64 .f32) (W1 : FVec Ideal S64x128 .f32) (B1 : FVec Ideal S128 .f32) (W2 : FVec Ideal S128x128 .f32)
    (B2 : FVec Ideal S128 .f32) (j : S8000x128.Idx) (i : S640000x128.Idx)
    (hx : ∀ k : Fin 64, x0 (ix2 (j 0) k) = E (ix2 (i 0) k)) (hw1 : x1 = W1)
    (hb1 : ∀ q : Fin 128, x2 (ix2 (0 : Fin 1) q) = B1 (ix1 q)) (hw2 : x3 = W2)
    (hb2 : ∀ q : Fin 128, x4 (ix2 (0 : Fin 1) q) = B2 (ix1 q)) (hq : (j 1).val = (i 1).val) :
    k1_pay1 (k1_pay3 x0 x1 x2 x3 x4) (k1_pay5 x0 x1 x2 x3 x4) (k1_pay6 x0 x1 x2 x3 x4) (k1_pay7 x0 x1 x2 x3 x4) (k1_pay8 (F := Ideal)) j
      = Cert.Interaction.filter E W1 B1 W2 B2 i := by
  subst hw1 hw2
  obtain ⟨p, q, rfl⟩ : ∃ (p : Fin 8000) (q : Fin 128), j = ix2 p q := ⟨j 0, j 1, eq_ix2 j⟩
  obtain ⟨r, q', rfl⟩ : ∃ (r : Fin 640000) (q' : Fin 128), i = ix2 r q' := ⟨i 0, i 1, eq_ix2 i⟩
  obtain rfl : q = q' := Fin.ext hq
  show klayer 0x3F317218#32 bitsLt_bf16_f32 broadcasts_S1x128_S8000x128
      (klayer 0x3F317218#32 bitsLt_bf16_f32 broadcasts_S1x128_S8000x128 x0 (truncf .bf16 x1 bitsLt_bf16_f32)
        (shapeCast S1x128 x2 shapeCasts_S1x128_S1x128))
      (truncf .bf16 x3 bitsLt_bf16_f32) (shapeCast S1x128 x4 shapeCasts_S1x128_S1x128) (ix2 p q) = _
  unfold Cert.Interaction.filter
  refine layer_row _ _ _ _ _ _ _ _ _ _ x3 B2 p r q (fun k2 => ?_) (fun k => rfl) ?_
  · refine layer_row _ _ _ _ _ _ x0 _ _ E x1 B1 p r k2 hx (fun k => rfl) ?_
    rw [shapeCast_self]; exact hb1 k2
  · rw [shapeCast_self]; exact hb2 q

theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point `t` writes back is block `t` of the filters of the arrays the call found; the two bias rows it found are
    the biases read as one-row arrays (`hb1`, `hb2`). -/
theorem edges_flushed (c : Dev nD) (B1 B2 : FVec Ideal S128 .f32)
    (hb1 : ∀ q : Fin 128, V c main_v1 (ix2 (0 : Fin 1) q) = B1 (ix1 q))
    (hb2 : ∀ q : Fin 128, V c main_v2 (ix2 (0 : Fin 1) q) = B2 (ix1 q)) (t : Fin cfg1.N) :
    (dat1 V c).flushed 5 t = ((cfg1.win 5).blk t).view.read (Elt Ideal)
      (Cert.Interaction.filter (V c main_arg3) (V c main_arg5) B1 (V c main_arg7) B2) := by
  show (cfg1.win 5).cut (grid1.coords t) ((dat1 V c).after 5 t) = _
  rw [after1_5]
  unfold out1_5
  rw [View.canon_unit_zero hz]
  simp only [View.ld_unit_zero (S := S8000x64) hz, View.ld_unit_zero (S := S64x128) hz, View.ld_unit_zero (S := S1x128) hz,
    View.ld_unit_zero (S := S128x128) hz]
  obtain ⟨e00, e01, e10, e11, e20, e21, e30, e31, e40, e41, e50, e51⟩ := idx1 t
  funext j
  refine edges_point (iblk1 V c 0 t) (iblk1 V c 1 t) (iblk1 V c 2 t) (iblk1 V c 3 t) (iblk1 V c 4 t)
    (V c main_arg3) (V c main_arg5) B1 (V c main_arg7) B2 j (((cfg1.win 5).blk t).view.emb j) ?_ ?_ ?_ ?_ ?_ ?_
  · intro k
    show V c main_arg3 (((cfg1.win 0).blk t).view.emb (ix2 (j 0) k)) = V c main_arg3 (ix2 ((((cfg1.win 5).blk t).view.emb j) 0) k)
    refine congrArg _ (funext fun a => Fin.ext ?_)
    match a with
    | ⟨0, _⟩ => show win1_0.index t (0 : Fin 2) * 8000 + 1 * (j 0).val = win1_5.index t (0 : Fin 2) * 8000 + 1 * (j 0).val; rw [e00, e50]
    | ⟨1, _⟩ => show win1_0.index t (1 : Fin 2) * 64 + 1 * k.val = k.val; rw [e01]; omega
  · funext y
    show V c main_arg5 (((cfg1.win 1).blk t).view.emb y) = V c main_arg5 y
    refine congrArg _ (funext fun a => Fin.ext ?_)
    match a with
    | ⟨0, _⟩ => show win1_1.index t (0 : Fin 2) * 64 + 1 * (y 0).val = (y 0).val; rw [e10]; omega
    | ⟨1, _⟩ => show win1_1.index t (1 : Fin 2) * 128 + 1 * (y 1).val = (y 1).val; rw [e11]; omega
  · intro q
    refine Eq.trans ?_ (hb1 q)
    show V c main_v1 (((cfg1.win 2).blk t).view.emb (ix2 (0 : Fin 1) q)) = V c main_v1 (ix2 (0 : Fin 1) q)
    refine congrArg _ (funext fun a => Fin.ext ?_)
    match a with
    | ⟨0, _⟩ => show win1_2.index t (0 : Fin 2) * 1 + 1 * 0 = 0; rw [e20]
    | ⟨1, _⟩ => show win1_2.index t (1 : Fin 2) * 128 + 1 * q.val = q.val; rw [e21]; omega
  · funext y
    show V c main_arg7 (((cfg1.win 3).blk t).view.emb y) = V c main_arg7 y
    refine congrArg _ (funext fun a => Fin.ext ?_)
    match a with
    | ⟨0, _⟩ => show win1_3.index t (0 : Fin 2) * 128 + 1 * (y 0).val = (y 0).val; rw [e30]; omega
    | ⟨1, _⟩ => show win1_3.index t (1 : Fin 2) * 128 + 1 * (y 1).val = (y 1).val; rw [e31]; omega
  · intro q
    refine Eq.trans ?_ (hb2 q)
    show V c main_v2 (((cfg1.win 4).blk t).view.emb (ix2 (0 : Fin 1) q)) = V c main_v2 (ix2 (0 : Fin 1) q)
    refine congrArg _ (funext fun a => Fin.ext ?_)
    match a with
    | ⟨0, _⟩ => show win1_4.index t (0 : Fin 2) * 1 + 1 * 0 = 0; rw [e40]
    | ⟨1, _⟩ => show win1_4.index t (1 : Fin 2) * 128 + 1 * q.val = q.val; rw [e41]; omega
  · show (j 1).val = win1_5.index t (1 : Fin 2) * 128 + 1 * (j 1).val
    rw [e51]; omega

theorem edges_mem (t : Fin cfg1.N) (i : S640000x128.Idx) :
    i ∈ ((cfg1.win 5).blk t).view.set ↔ ∀ a : Fin 2, win1_5.index t a * S8000x128.size a ≤ (i a).val
      ∧ (i a).val < win1_5.index t a * S8000x128.size a + S8000x128.size a := by
  show i ∈ ((View.whole main_v3).slice (win1_5.rect t)).set ↔ _
  rw [View.set_slice_whole, Rect.mem_set_unit]
  exact Iff.rfl

/-- The array the call leaves: row `r` is written back by point `r / 8000`. -/
theorem edges_final (c : Dev nD) (B1 B2 : FVec Ideal S128 .f32)
    (hb1 : ∀ q : Fin 128, V c main_v1 (ix2 (0 : Fin 1) q) = B1 (ix1 q))
    (hb2 : ∀ q : Fin 128, V c main_v2 (ix2 (0 : Fin 1) q) = B2 (ix1 q)) :
    (dat1 V c).arrAt 5 cfg1.N = Cert.Interaction.filter (V c main_arg3) (V c main_arg5) B1 (V c main_arg7) B2 :=
  (dat1 V c).arrAt_eq_of_cover 5 _ (fun t _ => edges_flushed V c B1 B2 hb1 hb2 t) fun i => by
    have hi0 : (i 0).val < 640000 := (i 0).isLt
    have hi1 : (i 1).val < 128 := (i 1).isLt
    have hN : cfg1.N = 80 := N_1
    obtain ⟨-, -, -, -, -, -, -, -, -, -, e50, e51⟩ := idx1 ⟨(i 0).val / 8000, by rw [hN]; omega⟩
    refine ⟨⟨(i 0).val / 8000, by rw [hN]; omega⟩, flush1_5 _, ?_⟩
    rw [edges_mem]
    intro a
    match a with
    | ⟨0, _⟩ =>
      show win1_5.index ⟨(i 0).val / 8000, _⟩ (0 : Fin 2) * 8000 ≤ (i 0).val
        ∧ (i 0).val < win1_5.index ⟨(i 0).val / 8000, _⟩ (0 : Fin 2) * 8000 + 8000
      rw [e50]; show (i 0).val / 8000 * 8000 ≤ (i 0).val ∧ (i 0).val < (i 0).val / 8000 * 8000 + 8000; omega
    | ⟨1, _⟩ =>
      show win1_5.index ⟨(i 0).val / 8000, _⟩ (1 : Fin 2) * 128 ≤ (i 1).val
        ∧ (i 1).val < win1_5.index ⟨(i 0).val / 8000, _⟩ (1 : Fin 2) * 128 + 128
      rw [e51]; omega

/-! ## The output layers (custom_call 2) -/

/-- An entry of the body's result reads one row of its block of means and the same entry of its block of node features. -/
theorem out_point (x0 : Vec Ideal S5000x128 .f32) (x1 : Vec Ideal S128x128 .f32) (x2 : Vec Ideal S1x128 .f32)
    (x3 : Vec Ideal S128x128 .f32) (x4 : Vec Ideal S1x128 .f32) (x5 : Vec Ideal S5000x128 .f32)
    (Y : FVec Ideal S50000x128 .f32) (W2 : FVec Ideal S128x128 .f32) (B2 : FVec Ideal S128 .f32) (W3 : FVec Ideal S128x128 .f32)
    (B3 : FVec Ideal S128 .f32) (X : FVec Ideal S50000x128 .f32) (j : S5000x128.Idx) (i : S50000x128.Idx)
    (hy : ∀ k : Fin 128, x0 (ix2 (j 0) k) = Y (ix2 (i 0) k)) (hw2 : x1 = W2)
    (hb2 : ∀ q : Fin 128, x2 (ix2 (0 : Fin 1) q) = B2 (ix1 q)) (hw3 : x3 = W3)
    (hb3 : ∀ q : Fin 128, x4 (ix2 (0 : Fin 1) q) = B3 (ix1 q)) (hxr : x5 j = X i) (hq : (j 1).val = (i 1).val) :
    k2_pay1 x0 x1 x2 x3 x4 x5 j = Cert.Interaction.outMlp Y W2 B2 W3 B3 X i := by
  subst hw2 hw3
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q = q' := Fin.ext hq
  show FloatOps.addf (x5 (ix2 p q))
      (addf (FloatOps.matmul (DotDims.plain 5000 128 128) none
          (truncf .bf16 (klayer 0x3F317218#32 bitsLt_bf16_f32 broadcasts_S1x128_S5000x128
            (shapeCast S5000x128 x0 shapeCasts_S5000x128_S5000x128) (truncf .bf16 x1 bitsLt_bf16_f32)
            (shapeCast S1x128 x2 shapeCasts_S1x128_S1x128)) bitsLt_bf16_f32)
          (truncf .bf16 x3 bitsLt_bf16_f32) (constant S5000x128 .f32 0x00000000#32))
        (broadcastTo S5000x128 (shapeCast S1x128 x4 shapeCasts_S1x128_S1x128) broadcasts_S1x128_S5000x128) (ix2 p q))
    = FloatOps.addf (X (ix2 r q))
      (addf (Host.dotGeneral (DotDims.plain 50000 128 128) none
          (hlayer 0x3F317218#32 Cert.Interaction.b0_n Cert.Interaction.b_r Cert.Interaction.br_n Y x1 B2) x3)
        (broadcastInDim Cert.Interaction.Sn ![0, 1] Cert.Interaction.br_n (broadcastInDim Cert.Interaction.Sr ![1] Cert.Interaction.b_r B3))
        (ix2 r q))
  rw [hxr]
  refine congrArg _ (affine_row _ _ _ _ _ _ _ _ x3 B3 p r q (fun k2 => ?_) (fun k => rfl) ?_)
  · refine layer_row _ _ _ _ _ _ _ _ _ Y x1 B2 p r k2 (fun k => ?_) (fun k => rfl) ?_
    · rw [shapeCast_self]; exact hy k
    · rw [shapeCast_self]; exact hb2 k2
  · rw [shapeCast_self]; exact hb3 q

theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- What point `t` writes back is block `t` of the output stage of the arrays the call found. -/
theorem out_flushed (c : Dev nD) (B2 B3 : FVec Ideal S128 .f32)
    (hb2 : ∀ q : Fin 128, V c main_v24 (ix2 (0 : Fin 1) q) = B2 (ix1 q))
    (hb3 : ∀ q : Fin 128, V c main_v25 (ix2 (0 : Fin 1) q) = B3 (ix1 q)) (t : Fin cfg2.N) :
    (dat2 V c).flushed 6 t = ((cfg2.win 6).blk t).view.read (Elt Ideal)
      (Cert.Interaction.outMlp (V c main_v23) (V c main_arg9) B2 (V c main_arg11) B3 (V c main_arg0)) := by
  show (cfg2.win 6).cut (grid2.coords t) ((dat2 V c).after 6 t) = _
  rw [after2_6]
  unfold out2_6
  rw [View.canon_unit_zero hz]
  simp only [View.ld_unit_zero (S := S5000x128) hz, View.ld_unit_zero (S := S1x128) hz, View.ld_unit_zero (S := S128x128) hz]
  obtain ⟨e00, e01, e10, e11, e20, e21, e30, e31, e40, e41, e50, e51, e60, e61⟩ := idx2 t
  funext j
  refine out_point (iblk2 V c 0 t) (iblk2 V c 1 t) (iblk2 V c 2 t) (iblk2 V c 3 t) (iblk2 V c 4 t) (iblk2 V c 5 t)
    (V c main_v23) (V c main_arg9) B2 (V c main_arg11) B3 (V c main_arg0) j (((cfg2.win 6).blk t).view.emb j) ?_ ?_ ?_ ?_ ?_ ?_ ?_
  · intro k
    show V c main_v23 (((cfg2.win 0).blk t).view.emb (ix2 (j 0) k)) = V c main_v23 (ix2 ((((cfg2.win 6).blk t).view.emb j) 0) k)
    refine congrArg _ (funext fun a => Fin.ext ?_)
    match a with
    | ⟨0, _⟩ => show win2_0.index t (0 : Fin 2) * 5000 + 1 * (j 0).val = win2_6.index t (0 : Fin 2) * 5000 + 1 * (j 0).val; rw [e00, e60]
    | ⟨1, _⟩ => show win2_0.index t (1 : Fin 2) * 128 + 1 * k.val = k.val; rw [e01]; omega
  · funext y
    show V c main_arg9 (((cfg2.win 1).blk t).view.emb y) = V c main_arg9 y
    refine congrArg _ (funext fun a => Fin.ext ?_)
    match a with
    | ⟨0, _⟩ => show win2_1.index t (0 : Fin 2) * 128 + 1 * (y 0).val = (y 0).val; rw [e10]; omega
    | ⟨1, _⟩ => show win2_1.index t (1 : Fin 2) * 128 + 1 * (y 1).val = (y 1).val; rw [e11]; omega
  · intro q
    refine Eq.trans ?_ (hb2 q)
    show V c main_v24 (((cfg2.win 2).blk t).view.emb (ix2 (0 : Fin 1) q)) = V c main_v24 (ix2 (0 : Fin 1) q)
    refine congrArg _ (funext fun a => Fin.ext ?_)
    match a with
    | ⟨0, _⟩ => show win2_2.index t (0 : Fin 2) * 1 + 1 * 0 = 0; rw [e20]
    | ⟨1, _⟩ => show win2_2.index t (1 : Fin 2) * 128 + 1 * q.val = q.val; rw [e21]; omega
  · funext y
    show V c main_arg11 (((cfg2.win 3).blk t).view.emb y) = V c main_arg11 y
    refine congrArg _ (funext fun a => Fin.ext ?_)
    match a with
    | ⟨0, _⟩ => show win2_3.index t (0 : Fin 2) * 128 + 1 * (y 0).val = (y 0).val; rw [e30]; omega
    | ⟨1, _⟩ => show win2_3.index t (1 : Fin 2) * 128 + 1 * (y 1).val = (y 1).val; rw [e31]; omega
  · intro q
    refine Eq.trans ?_ (hb3 q)
    show V c main_v25 (((cfg2.win 4).blk t).view.emb (ix2 (0 : Fin 1) q)) = V c main_v25 (ix2 (0 : Fin 1) q)
    refine congrArg _ (funext fun a => Fin.ext ?_)
    match a with
    | ⟨0, _⟩ => show win2_4.index t (0 : Fin 2) * 1 + 1 * 0 = 0; rw [e40]
    | ⟨1, _⟩ => show win2_4.index t (1 : Fin 2) * 128 + 1 * q.val = q.val; rw [e41]; omega
  · show V c main_arg0 (((cfg2.win 5).blk t).view.emb j) = V c main_arg0 (((cfg2.win 6).blk t).view.emb j)
    refine congrArg _ (funext fun a => Fin.ext ?_)
    match a with
    | ⟨0, _⟩ => show win2_5.index t (0 : Fin 2) * 5000 + 1 * (j 0).val = win2_6.index t (0 : Fin 2) * 5000 + 1 * (j 0).val; rw [e50, e60]
    | ⟨1, _⟩ => show win2_5.index t (1 : Fin 2) * 128 + 1 * (j 1).val = win2_6.index t (1 : Fin 2) * 128 + 1 * (j 1).val; rw [e51, e61]
  · show (j 1).val = win2_6.index t (1 : Fin 2) * 128 + 1 * (j 1).val
    rw [e61]; omega

theorem out_mem (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v26).slice (win2_6.rect t)).set ↔ _
  rw [View.set_slice_whole, Rect.mem_set_unit]
  exact Iff.rfl

/-- The array the call leaves: row `r` is written back by point `r / 5000`. -/
theorem out_final (c : Dev nD) (B2 B3 : FVec Ideal S128 .f32)
    (hb2 : ∀ q : Fin 128, V c main_v24 (ix2 (0 : Fin 1) q) = B2 (ix1 q))
    (hb3 : ∀ q : Fin 128, V c main_v25 (ix2 (0 : Fin 1) q) = B3 (ix1 q)) :
    (dat2 V c).arrAt 6 cfg2.N
      = Cert.Interaction.outMlp (V c main_v23) (V c main_arg9) B2 (V c main_arg11) B3 (V c main_arg0) :=
  (dat2 V c).arrAt_eq_of_cover 6 _ (fun t _ => out_flushed V c B2 B3 hb2 hb3 t) fun i => by
    have hi0 : (i 0).val < 50000 := (i 0).isLt
    have hi1 : (i 1).val < 128 := (i 1).isLt
    have hN : cfg2.N = 10 := N_2
    obtain ⟨-, -, -, -, -, -, -, -, -, -, -, -, e60, e61⟩ := idx2 ⟨(i 0).val / 5000, by rw [hN]; omega⟩
    refine ⟨⟨(i 0).val / 5000, by rw [hN]; omega⟩, flush2_6 _, ?_⟩
    rw [out_mem]
    intro a
    match a with
    | ⟨0, _⟩ =>
      show win2_6.index ⟨(i 0).val / 5000, _⟩ (0 : Fin 2) * 5000 ≤ (i 0).val
        ∧ (i 0).val < win2_6.index ⟨(i 0).val / 5000, _⟩ (0 : Fin 2) * 5000 + 5000
      rw [e60]; show (i 0).val / 5000 * 5000 ≤ (i 0).val ∧ (i 0).val < (i 0).val / 5000 * 5000 + 5000; omega
    | ⟨1, _⟩ =>
      show win2_6.index ⟨(i 0).val / 5000, _⟩ (1 : Fin 2) * 128 ≤ (i 1).val
        ∧ (i 1).val < win2_6.index ⟨(i 0).val / 5000, _⟩ (1 : Fin 2) * 128 + 128
      rw [e61]; omega

end Cert.KernelIdeal.Hand

end
-- ==== Proof.KernelRun.lean ====
/-
  The kernel's run, read: @main is three pallas_calls among two stretches of host operations, and the generated frame
  certificate runs it segment by segment, naming what every buffer holds at each boundary (`W0` at launch … `W5` at the
  return). Its own statement keeps only the arguments; `run_last` states the run with the result buffer read as
  well, at `W5`. The rest walks `W5` at the result back to the launch memory: the last call's array is the output stage of
  what it found (`out_final`), what it found is what the second stretch computed (the gather, the scatters, the quotient,
  and the two biases recast as rows) from what the second call left (`edges_final`) and the first call left
  (`nodes_final`), and no argument changes on the way.
-/
import proofs.«165474_j15161234555433_1_alg».proof.Proof.KernelRegions
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Idealize.ShloMosaic.SoftplusDense

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the arguments as launched. -/
theorem run_last : θ_run defs (onTc (τ := τ) (main (F := F))) ⟨m, fun _ => 0, ρ⟩ (fun r => ∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v26 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Run

section Chain

variable (m : (ℓ : Loc nD τ sig) → Buf (Elt Ideal) ℓ) (ρ : Dev nD → PrngReg) (c : Dev nD)

/-- A buffer no operation of a stretch writes keeps its contents through the stretch. -/
local macro "unwritten" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-! ### The arguments, unchanged up to the boundary where they are read -/

theorem at1_arg6 : W1 m ρ c (Proc.devRef .tc main_arg6) = m ((c : Thread nD τ).loc main_arg6) :=
  calc W1 m ρ c (Proc.devRef .tc main_arg6)
    _ = W0 m ρ c (Proc.devRef .tc main_arg6) := W1_of_ne m ρ c main_arg6 (by decide)
    _ = m ((c : Thread nD τ).loc main_arg6) := rfl
theorem at1_arg8 : W1 m ρ c (Proc.devRef .tc main_arg8) = m ((c : Thread nD τ).loc main_arg8) :=
  calc W1 m ρ c (Proc.devRef .tc main_arg8)
    _ = W0 m ρ c (Proc.devRef .tc main_arg8) := W1_of_ne m ρ c main_arg8 (by decide)
    _ = m ((c : Thread nD τ).loc main_arg8) := rfl
theorem at2_arg3 : W2 m ρ c (Proc.devRef .tc main_arg3) = m ((c : Thread nD τ).loc main_arg3) :=
  calc W2 m ρ c (Proc.devRef .tc main_arg3)
    _ = W1 m ρ c (Proc.devRef .tc main_arg3) := by unwritten hostOps1
    _ = W0 m ρ c (Proc.devRef .tc main_arg3) := W1_of_ne m ρ c main_arg3 (by decide)
    _ = m ((c : Thread nD τ).loc main_arg3) := rfl
theorem at2_arg5 : W2 m ρ c (Proc.devRef .tc main_arg5) = m ((c : Thread nD τ).loc main_arg5) :=
  calc W2 m ρ c (Proc.devRef .tc main_arg5)
    _ = W1 m ρ c (Proc.devRef .tc main_arg5) := by unwritten hostOps1
    _ = W0 m ρ c (Proc.devRef .tc main_arg5) := W1_of_ne m ρ c main_arg5 (by decide)
    _ = m ((c : Thread nD τ).loc main_arg5) := rfl
theorem at2_arg7 : W2 m ρ c (Proc.devRef .tc main_arg7) = m ((c : Thread nD τ).loc main_arg7) :=
  calc W2 m ρ c (Proc.devRef .tc main_arg7)
    _ = W1 m ρ c (Proc.devRef .tc main_arg7) := by unwritten hostOps1
    _ = W0 m ρ c (Proc.devRef .tc main_arg7) := W1_of_ne m ρ c main_arg7 (by decide)
    _ = m ((c : Thread nD τ).loc main_arg7) := rfl
theorem at3_arg1 : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := by unwritten hostOps1
    _ = W0 m ρ c (Proc.devRef .tc main_arg1) := W1_of_ne m ρ c main_arg1 (by decide)
    _ = m ((c : Thread nD τ).loc main_arg1) := rfl
theorem at3_arg2 : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := by unwritten hostOps1
    _ = W0 m ρ c (Proc.devRef .tc main_arg2) := W1_of_ne m ρ c main_arg2 (by decide)
    _ = m ((c : Thread nD τ).loc main_arg2) := rfl
theorem at3_arg10 : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := by unwritten hostOps1
    _ = W0 m ρ c (Proc.devRef .tc main_arg10) := W1_of_ne m ρ c main_arg10 (by decide)
    _ = m ((c : Thread nD τ).loc main_arg10) := rfl
theorem at3_arg12 : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := by unwritten hostOps1
    _ = W0 m ρ c (Proc.devRef .tc main_arg12) := W1_of_ne m ρ c main_arg12 (by decide)
    _ = m ((c : Thread nD τ).loc main_arg12) := rfl
theorem at4_arg9 : W4 m ρ c (Proc.devRef .tc main_arg9) = m ((c : Thread nD τ).loc main_arg9) :=
  calc W4 m ρ c (Proc.devRef .tc main_arg9)
    _ = W3 m ρ c (Proc.devRef .tc main_arg9) := by unwritten hostOps2
    _ = W2 m ρ c (Proc.devRef .tc main_arg9) := W3_of_ne m ρ c main_arg9 (by decide)
    _ = W1 m ρ c (Proc.devRef .tc main_arg9) := by unwritten hostOps1
    _ = W0 m ρ c (Proc.devRef .tc main_arg9) := W1_of_ne m ρ c main_arg9 (by decide)
    _ = m ((c : Thread nD τ).loc main_arg9) := rfl
theorem at4_arg11 : W4 m ρ c (Proc.devRef .tc main_arg11) = m ((c : Thread nD τ).loc main_arg11) :=
  calc W4 m ρ c (Proc.devRef .tc main_arg11)
    _ = W3 m ρ c (Proc.devRef .tc main_arg11) := by unwritten hostOps2
    _ = W2 m ρ c (Proc.devRef .tc main_arg11) := W3_of_ne m ρ c main_arg11 (by decide)
    _ = W1 m ρ c (Proc.devRef .tc main_arg11) := by unwritten hostOps1
    _ = W0 m ρ c (Proc.devRef .tc main_arg11) := W1_of_ne m ρ c main_arg11 (by decide)
    _ = m ((c : Thread nD τ).loc main_arg11) := rfl
theorem at4_arg0 : W4 m ρ c (Proc.devRef .tc main_arg0) = m ((c : Thread nD τ).loc main_arg0) :=
  calc W4 m ρ c (Proc.devRef .tc main_arg0)
    _ = W3 m ρ c (Proc.devRef .tc main_arg0) := by unwritten hostOps2
    _ = W2 m ρ c (Proc.devRef .tc main_arg0) := W3_of_ne m ρ c main_arg0 (by decide)
    _ = W1 m ρ c (Proc.devRef .tc main_arg0) := by unwritten hostOps1
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

/-! ### What the calls and the stretches leave -/

/-- After the first call its result buffer holds the nodes' product, -/
theorem at1_nodes : W1 m ρ c (Proc.devRef .tc main_v0) = Cert.Interaction.atomwise (m ((c : Thread nD τ).loc main_arg0)) (m ((c : Thread nD τ).loc main_arg4)) :=
  (W1_arr m ρ c 2).trans (nodes_final (V0 m ρ) c)

/-- and still does where the second stretch reads it. -/
theorem at3_nodes : W3 m ρ c (Proc.devRef .tc main_v0) = Cert.Interaction.atomwise (m ((c : Thread nD τ).loc main_arg0)) (m ((c : Thread nD τ).loc main_arg4)) :=
  calc W3 m ρ c (Proc.devRef .tc main_v0)
    _ = W2 m ρ c (Proc.devRef .tc main_v0) := W3_of_ne m ρ c main_v0 (by decide)
    _ = W1 m ρ c (Proc.devRef .tc main_v0) := by unwritten hostOps1
    _ = _ := at1_nodes m ρ c

/-- The first stretch recasts the two filter biases as one-row arrays. -/
theorem at2_row1 (q : Fin 128) : V2 m ρ c main_v1 (ix2 (0 : Fin 1) q) = (m ((c : Thread nD τ).loc main_arg6)) (ix1 q) := by
  have e : V2 m ρ c main_v1 = shapeCast S1x128 (W1 m ρ c (Proc.devRef .tc main_arg6)) shapeCasts_S128_S1x128 := by
    show StableHlo.after hostOps1 (W1 m ρ c) (Proc.devRef .tc main_v1) = _
    after_results
    rfl
  rw [e, at1_arg6]
  exact shapeCast_a_1a_apply _ _ (0 : Fin 1) q
theorem at2_row2 (q : Fin 128) : V2 m ρ c main_v2 (ix2 (0 : Fin 1) q) = (m ((c : Thread nD τ).loc main_arg8)) (ix1 q) := by
  have e : V2 m ρ c main_v2 = shapeCast S1x128 (W1 m ρ c (Proc.devRef .tc main_arg8)) shapeCasts_S128_S1x128 := by
    show StableHlo.after hostOps1 (W1 m ρ c) (Proc.devRef .tc main_v2) = _
    after_results
    rfl
  rw [e, at1_arg8]
  exact shapeCast_a_1a_apply _ _ (0 : Fin 1) q

/-- After the second call its result buffer holds the edges' filters. -/
theorem at3_edges : W3 m ρ c (Proc.devRef .tc main_v3)
    = Cert.Interaction.filter (m ((c : Thread nD τ).loc main_arg3)) (m ((c : Thread nD τ).loc main_arg5)) (m ((c : Thread nD τ).loc main_arg6)) (m ((c : Thread nD τ).loc main_arg7)) (m ((c : Thread nD τ).loc main_arg8)) := by
  refine (W3_arr m ρ c 5).trans ((edges_final (V2 m ρ) c (m ((c : Thread nD τ).loc main_arg6)) (m ((c : Thread nD τ).loc main_arg8)) (at2_row1 m ρ c) (at2_row2 m ρ c)).trans ?_)
  show Cert.Interaction.filter (W2 m ρ c (Proc.devRef .tc main_arg3)) (W2 m ρ c (Proc.devRef .tc main_arg5)) _ (W2 m ρ c (Proc.devRef .tc main_arg7)) _ = _
  rw [at2_arg3, at2_arg5, at2_arg7]

/-- The second stretch: the gather, the two accumulating scatters and the quotient, of what the two calls left. -/
theorem at4_mean : V4 m ρ c main_v23
    = Cert.Interaction.scatterMean gather_S50000x128_S640000x1_S640000x128_1_0_n_n_0_1_1128 scatter_S50000x128_S640000x1_S640000x128_1_0_0_1 scatter_S50000_S640000x1_S640000_n_0_0_1
        (Cert.Interaction.atomwise (m ((c : Thread nD τ).loc main_arg0)) (m ((c : Thread nD τ).loc main_arg4)))
        (Cert.Interaction.filter (m ((c : Thread nD τ).loc main_arg3)) (m ((c : Thread nD τ).loc main_arg5)) (m ((c : Thread nD τ).loc main_arg6)) (m ((c : Thread nD τ).loc main_arg7)) (m ((c : Thread nD τ).loc main_arg8)))
        (m ((c : Thread nD τ).loc main_arg1)) (m ((c : Thread nD τ).loc main_arg2)) := by
  have e : V4 m ρ c main_v23 = Cert.Interaction.scatterMean gather_S50000x128_S640000x1_S640000x128_1_0_n_n_0_1_1128 scatter_S50000x128_S640000x1_S640000x128_1_0_0_1 scatter_S50000_S640000x1_S640000_n_0_0_1
      (W3 m ρ c (Proc.devRef .tc main_v0)) (W3 m ρ c (Proc.devRef .tc main_v3)) (W3 m ρ c (Proc.devRef .tc main_arg1)) (W3 m ρ c (Proc.devRef .tc main_arg2)) := by
    show StableHlo.after hostOps2 (W3 m ρ c) (Proc.devRef .tc main_v23) = _
    after_results_simp
    rfl
  rw [e, at3_nodes, at3_edges, at3_arg1, at3_arg2]

/-- and the two output biases recast as one-row arrays. -/
theorem at4_row1 (q : Fin 128) : V4 m ρ c main_v24 (ix2 (0 : Fin 1) q) = (m ((c : Thread nD τ).loc main_arg10)) (ix1 q) := by
  have e : V4 m ρ c main_v24 = shapeCast S1x128 (W3 m ρ c (Proc.devRef .tc main_arg10)) shapeCasts_S128_S1x128 := by
    show StableHlo.after hostOps2 (W3 m ρ c) (Proc.devRef .tc main_v24) = _
    after_results_simp
    rfl
  rw [e, at3_arg10]
  exact shapeCast_a_1a_apply _ _ (0 : Fin 1) q
theorem at4_row2 (q : Fin 128) : V4 m ρ c main_v25 (ix2 (0 : Fin 1) q) = (m ((c : Thread nD τ).loc main_arg12)) (ix1 q) := by
  have e : V4 m ρ c main_v25 = shapeCast S1x128 (W3 m ρ c (Proc.devRef .tc main_arg12)) shapeCasts_S128_S1x128 := by
    show StableHlo.after hostOps2 (W3 m ρ c) (Proc.devRef .tc main_v25) = _
    after_results_simp
    rfl
  rw [e, at3_arg12]
  exact shapeCast_a_1a_apply _ _ (0 : Fin 1) q

/-- At the return the result buffer holds the whole computation of the launch memory's arguments. -/
theorem at5_result : W5 m ρ c (Proc.devRef .tc main_v26)
    = Cert.Interaction.result gather_S50000x128_S640000x1_S640000x128_1_0_n_n_0_1_1128 scatter_S50000x128_S640000x1_S640000x128_1_0_0_1 scatter_S50000_S640000x1_S640000_n_0_0_1
        (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W5_arr m ρ c 6).trans ((out_final (V4 m ρ) c (m ((c : Thread nD τ).loc main_arg10)) (m ((c : Thread nD τ).loc main_arg12)) (at4_row1 m ρ c) (at4_row2 m ρ c)).trans ?_)
  show Cert.Interaction.outMlp (V4 m ρ c main_v23) (W4 m ρ c (Proc.devRef .tc main_arg9)) _ (W4 m ρ c (Proc.devRef .tc main_arg11)) _ (W4 m ρ c (Proc.devRef .tc main_arg0)) = _
  rw [at4_mean, at4_arg9, at4_arg11, at4_arg0]
  rfl

/-- THE RUN, READ: the result at the whole computation of the arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v26)
        = Cert.Interaction.result gather_S50000x128_S640000x1_S640000x128_1_0_n_n_0_1_1128 scatter_S50000x128_S640000x1_S640000x128_1_0_0_1 scatter_S50000_S640000x1_S640000_n_0_0_1
            (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨(h c).1.trans (at5_result m ρ c), (h c).2⟩) (run_last m ρ)

end Chain

end Cert.KernelIdeal.Hand

end
-- ==== Proof.RefValue.lean ====
/-
  The reference computes the four stages, in order: its generated stages (one per host operation) compose to them.
  Each equation below is an unfolding: the reference's own operations are the ones the stages are written with, its
  dimension records the plain ones, its `softplus` calls the host's spelling of the shifted softplus with the shift
  subtracted right after the call.
-/
import proofs.«165474_j15161234555433_1_alg».proof.Proof.Gen.ReferenceIdeal.Read
import proofs.«165474_j15161234555433_1_alg».proof.Proof.Interaction

noncomputable section

namespace Cert.ReferenceIdeal.RefValue

open Cert.ReferenceIdeal Cert.ReferenceIdeal.Gen Cert.ReferenceIdeal.Read Idealize.ShloMosaic Idealize.ShloMosaic.SoftplusDense

variable (x0 : (⟨S50000x128, .f32⟩ : BufTy).Contents (Elt Ideal)) (x1 x2 : (⟨S640000, .i32⟩ : BufTy).Contents (Elt Ideal))
  (x3 : (⟨S640000x64, .f32⟩ : BufTy).Contents (Elt Ideal)) (x4 : (⟨S128x128, .f32⟩ : BufTy).Contents (Elt Ideal))
  (x5 : (⟨S64x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))
  (x9 : (⟨S128x128, .f32⟩ : BufTy).Contents (Elt Ideal)) (x10 : (⟨S128, .f32⟩ : BufTy).Contents (Elt Ideal))
  (x11 : (⟨S128x128, .f32⟩ : BufTy).Contents (Elt Ideal)) (x12 : (⟨S128, .f32⟩ : BufTy).Contents (Elt Ideal))

/-- The first product is the nodes' stage. -/
theorem atomwise_eq : val_main_v0 (F := Ideal) x0 x4 = Cert.Interaction.atomwise x0 x4 := rfl

/-- The first filter layer: product, twice-lifted bias, the `softplus` call, the shift. -/
theorem layer1_eq : val_main_v7 (F := Ideal) x3 x5 x6
    = hlayer 0x3F317218#32 Cert.Interaction.b0_e Cert.Interaction.b_r Cert.Interaction.br_e x3 x5 x6 := rfl

/-- The two filter layers. -/
theorem filter_eq : val_main_v14 (F := Ideal) x3 x5 x6 x7 x8 = Cert.Interaction.filter x3 x5 x6 x7 x8 := rfl

/-- The gather, the two accumulating scatters and the quotient. -/
theorem mean_eq : val_main_v34 (F := Ideal) x0 x1 x2 x3 x4 x5 x6 x7 x8
    = Cert.Interaction.scatterMean gather_S50000x128_S640000x1_S640000x128_1_0_n_n_0_1_1128
        scatter_S50000x128_S640000x1_S640000x128_1_0_0_1 scatter_S50000_S640000x1_S640000_n_0_0_1
        (val_main_v0 (F := Ideal) x0 x4) (val_main_v14 (F := Ideal) x3 x5 x6 x7 x8) x1 x2 := rfl

/-- The output layers and the residual, over the mean. -/
theorem out_eq : val_main_v46 (F := Ideal) x0 x1 x2 x3 x4 x5 x6 x7 x8 x9 x10 x11 x12
    = Cert.Interaction.outMlp (val_main_v34 (F := Ideal) x0 x1 x2 x3 x4 x5 x6 x7 x8) x9 x10 x11 x12 x0 := rfl

/-- The reference's result is the whole computation at its own dimension records. -/
theorem result_eq : val_main_v46 (F := Ideal) x0 x1 x2 x3 x4 x5 x6 x7 x8 x9 x10 x11 x12
    = Cert.Interaction.result gather_S50000x128_S640000x1_S640000x128_1_0_n_n_0_1_1128
        scatter_S50000x128_S640000x1_S640000x128_1_0_0_1 scatter_S50000_S640000x1_S640000_n_0_0_1
        x0 x1 x2 x3 x4 x5 x6 x7 x8 x9 x10 x11 x12 := by
  rw [out_eq, mean_eq, atomwise_eq, filter_eq]
  rfl

end Cert.ReferenceIdeal.RefValue

end
-- ==== Proof.lean ====
/-
  Kernel against reference: an interaction block of a continuous-filter convolution on a graph of 50000 nodes and 640000 edges.

  Both programs compute, on the extended reals (Interaction.lean): the nodes' features times a weight matrix; for every edge
  a filter, two dense layers on the edge's features with `softplus - log 2` after each; for every edge the product of the
  filter with the features of the edge's source node, added into the edge's target node and divided by the number of edges
  added there (at least one); and on every node two more dense layers, the shifted softplus between them, plus the node's
  own features.
  The reference does all of it with host operations. The kernel does the three dense parts in three pallas_calls that tile
  the rows (5000 nodes or 8000 edges per grid point) with the left operands rounded to bf16 — the identity on the extended
  reals — and leaves the gather, the two scatters and the quotient on the host, spelled exactly as the reference spells them.
  An entry of a block a call writes back reads one row of the call's row operands, and every row is in exactly the block of
  the point `row / rows-per-block`: so each call's array is the stage of the whole arrays it found (KernelRegions.lean), the
  run carries these through the two host stretches to the result (KernelRun.lean), and the reference's composed term is
  the same stages (RefValue.lean). The two spellings of the shifted softplus differ only in how they negate (`0 - |d|`
  against `-|d|`) and in an ordered against an unordered comparison of a number with itself; no law that needs finite
  numbers is used, so the precondition is never opened.
  The frames of the two kernel programs are the generated ones; the reference's is its generated run with the result
  dropped; nothing was rewritten by the idealization, so `preserves` has nothing to say.
-/
import proofs.«165474_j15161234555433_1_alg».proof.Defs
import proofs.«165474_j15161234555433_1_alg».proof.Proof.Gen.Kernel
import proofs.«165474_j15161234555433_1_alg».proof.Proof.Gen.Kernel.Skeleton
import proofs.«165474_j15161234555433_1_alg».proof.Proof.Gen.Kernel.Launch
import proofs.«165474_j15161234555433_1_alg».proof.Proof.Gen.Kernel.Points
import proofs.«165474_j15161234555433_1_alg».proof.Proof.Gen.Kernel.Frame
import proofs.«165474_j15161234555433_1_alg».proof.Proof.Gen.KernelIdeal
import proofs.«165474_j15161234555433_1_alg».proof.Proof.Gen.KernelIdeal.Skeleton
import proofs.«165474_j15161234555433_1_alg».proof.Proof.Gen.KernelIdeal.Launch
import proofs.«165474_j15161234555433_1_alg».proof.Proof.Gen.KernelIdeal.Points
import proofs.«165474_j15161234555433_1_alg».proof.Proof.Gen.KernelIdeal.Frame
import proofs.«165474_j15161234555433_1_alg».proof.Proof.Gen.ReferenceIdeal
import proofs.«165474_j15161234555433_1_alg».proof.Proof.Gen.Pre_finite_inputs
import proofs.«165474_j15161234555433_1_alg».proof.Proof.Gen.ReferenceIdeal.Run
import proofs.«165474_j15161234555433_1_alg».proof.Proof.Gen.ReferenceIdeal.Read
import proofs.«165474_j15161234555433_1_alg».proof.Proof.KernelRun
import proofs.«165474_j15161234555433_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The kernel's result buffer ends at the whole computation of its arguments (its run, read), the reference's at its
    composed term, which is the same computation at the reference's copies of the gather's and the scatters' dimension
    records; the memories agree on the arguments and the records are the same records. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq, Cert.ReferenceIdeal.RefValue.result_eq]
  obtain ⟨h0, h1, h2, h3, h4, h5, h6, h7, h8, h9, h10, h11, h12⟩ := hagree c
  rw [h0, h1, h2, h3, h4, h5, h6, h7, h8, h9, h10, h11, h12]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
